-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1250000 32) (main_arg2 : IVec S1250000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩
abbrev S10000x64 : Shape := ⟨2, ![10000, 64]⟩

abbrev nBuf : Space → Nat
  | .hbm => 20
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1250000, .i32⟩
  | .hbm, ⟨7, _⟩ => ⟨S1250000, .i1⟩
  | .hbm, ⟨8, _⟩ => ⟨S_, .i32⟩
  | .hbm, ⟨9, _⟩ => ⟨S1250000, .i32⟩
  | .hbm, ⟨10, _⟩ => ⟨S1250000, .i32⟩
  | .hbm, ⟨11, _⟩ => ⟨S1250000, .i32⟩
  | .hbm, ⟨12, _⟩ => ⟨S1250000x1, .i32⟩
  | .hbm, ⟨13, _⟩ => ⟨S1250000x64, .f32⟩
  | .hbm, ⟨14, _⟩ => ⟨S_, .f32⟩
  | .hbm, ⟨15, _⟩ => ⟨S100000x64, .f32⟩
  | .hbm, ⟨16, _⟩ => ⟨S1250000x1, .i32⟩
  | .hbm, ⟨17, _⟩ => ⟨S100000x64, .f32⟩
  | .hbm, ⟨18, _⟩ => ⟨S1x64, .f32⟩
  | .hbm, ⟨19, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v9) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 22
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1250000, .i32⟩
  | .hbm, ⟨7, _⟩ => ⟨S1250000, .i1⟩
  | .hbm, ⟨8, _⟩ => ⟨S_, .i32⟩
  | .hbm, ⟨9, _⟩ => ⟨S1250000, .i32⟩
  | .hbm, ⟨10, _⟩ => ⟨S1250000, .i32⟩
  | .hbm, ⟨11, _⟩ => ⟨S1250000, .i32⟩
  | .hbm, ⟨12, _⟩ => ⟨S1250000x1, .i32⟩
  | .hbm, ⟨13, _⟩ => ⟨S1250000x64, .f32⟩
  | .hbm, ⟨14, _⟩ => ⟨S_, .f32⟩
  | .hbm, ⟨15, _⟩ => ⟨S100000x64, .f32⟩
  | .hbm, ⟨16, _⟩ => ⟨S1250000x1, .i32⟩
  | .hbm, ⟨17, _⟩ => ⟨S100000x64, .f32⟩
  | .hbm, ⟨18, _⟩ => ⟨S100000x64, .f32⟩
  | .hbm, ⟨19, _⟩ => ⟨S1x64, .f32⟩
  | .hbm, ⟨20, _⟩ => ⟨S100000x64, .f32⟩
  | .hbm, ⟨21, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Linear.lean ====
/-
  The function both programs compute from the aggregated node features. For an array `a` of 100000 rows of 64
  features, a 64 × 64 weight matrix `w` and a bias row `b`, entry (r, j) of the result is

      Σ_k a[r, k] · w[k, j]  +  b[j]

  on the extended reals: a row of `a` against a column of `w`, then the bias of that column. Nothing else is
  needed of the extended reals than that this is one expression: the two programs differ only in how they tile
  the rows, and a row's sum never leaves its row.
-/
import Idealize.ShloMosaic.PureOps.Ideal
import Idealize.ShloMosaic.Lib.ValueIdx

noncomputable section

open scoped BigOperators
open Idealize.ShloMosaic Idealize.ShloMosaic.ValueIdx

namespace Cert.AggLinear

/-- Rows of `a` times the columns of `w`, plus the bias of the column. -/
def linear (a : FVec Ideal ⟨2, ![100000, 64]⟩ .f32) (w : FVec Ideal ⟨2, ![64, 64]⟩ .f32) (b : FVec Ideal ⟨1, ![64]⟩ .f32) :
    FVec Ideal ⟨2, ![100000, 64]⟩ .f32 :=
  fun i => (∑ k : Fin 64, a (ix2 (i 0) k) * w (ix2 k (i 1))) + b (ix1 (i 1))

/-- The function read at an entry. -/
theorem linear_apply (a : FVec Ideal ⟨2, ![100000, 64]⟩ .f32) (w : FVec Ideal ⟨2, ![64, 64]⟩ .f32) (b : FVec Ideal ⟨1, ![64]⟩ .f32)
    (i : (⟨2, ![100000, 64]⟩ : Shape).Idx) :
    linear a w b i = (∑ k : Fin 64, a (ix2 (i 0) k) * w (ix2 k (i 1))) + b (ix1 (i 1)) := rfl

end Cert.AggLinear

end
-- ==== Proof.RefLinear.lean ====
/-
  The reference, read at an entry. Its last three operations are the product of the aggregated features with the
  weight matrix, the bias spread over the rows, and their sum; read at entry (r, j) that is the specification's
  expression over the reference's own aggregated array (the scatter-add stage, left unopened).
-/
import proofs.«142591_j11141145166375_1_alg».proof.Proof.Gen.ReferenceIdeal.Read
import proofs.«142591_j11141145166375_1_alg».proof.Proof.Linear

noncomputable section

open scoped BigOperators
open Idealize.ShloMosaic Idealize.ShloMosaic.ValueIdx

namespace Cert.AggLinear.Ref

open Cert.ReferenceIdeal Cert.ReferenceIdeal.Read

/-- The product reads the aggregated array in the entry's row at the contracted position, -/
theorem left_entry (i : S100000x64.Idx) (k : Fin 64) : lidx_main_v10 i k = ix2 (i 0) k :=
  funext fun a => Fin.ext (by match a with | ⟨0, _⟩ => rfl | ⟨1, _⟩ => rfl)
/-- the weight matrix at the contracted position in the entry's column, -/
theorem right_entry (i : S100000x64.Idx) (k : Fin 64) : ridx_main_v10 i k = ix2 k (i 1) :=
  funext fun a => Fin.ext (by match a with | ⟨0, _⟩ => rfl | ⟨1, _⟩ => rfl)
/-- and the two broadcasts of the bias read it at the entry's column. -/
theorem bias_entry (i : S100000x64.Idx) : idx_main_v11 (idx_main_v12 i) = ix1 (i 1) :=
  funext fun a => Fin.ext (by match a with | ⟨0, _⟩ => rfl)

/-- The reference's result is `linear` of its aggregated array, the weights and the bias. -/
theorem result_eq (x0 : (⟨S100000x64, .f32⟩ : BufTy).Contents (Elt Ideal)) (x1 x2 : (⟨S1250000, .i32⟩ : BufTy).Contents (Elt Ideal))
    (x3 : (⟨S64x64, .f32⟩ : BufTy).Contents (Elt Ideal)) (x4 : (⟨S64, .f32⟩ : BufTy).Contents (Elt Ideal)) :
    val_main_v13 (F := Ideal) x0 x1 x2 x3 x4 = linear (val_main_v9 (F := Ideal) x0 x1 x2) x3 x4 := by
  funext i
  rw [val_main_v13_apply, val_main_v10_apply, val_main_v12_apply, val_main_v11_apply, linear_apply]
  simp only [left_entry, right_entry, bias_entry]
  rfl

end Cert.AggLinear.Ref

end
-- ==== Proof.BodyLinear.lean ====
/-
  What one grid step computes. The body loads a block `x` of 10000 rows of the aggregated features, the whole
  weight matrix `w` and the bias row `b` (kept as a 1 × 64 array), multiplies the block by the matrix into a zero
  accumulator and adds the bias row to every row of the product. On the extended reals the change of float format
  in front of the product is the identity and the zero accumulator adds nothing, so entry (p, q) of what the step
  stores is

      Σ_k x[p, k] · w[k, q]  +  b[0, q].
-/
import proofs.«142591_j11141145166375_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.AggLinear.Body

open Cert.KernelIdeal Cert.KernelIdeal.Gen

/-! ## The operand entries the block product meets at an output entry -/

/-- The left operand is read in the output entry's row, -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- at the contracted position; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contracted position, -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- in the output entry's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into the zero accumulator, at entry (p, q): row p of the block against column q of the matrix. -/
theorem product_apply (x : FVec Ideal S10000x64 .bf16) (w : FVec Ideal S64x64 .bf16) (p : Fin 10000) (q : Fin 64) :
    matmul (F := Ideal) dot_S10000x64_S64x64_S10000x64_1_0_0_1_n_n none x w (constant (F := Ideal) S10000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias row spread over the block's rows, at entry (p, q): the row's entry in column q. -/
theorem bias_apply (b : FVec Ideal S1x64 .f32) (p : Fin 10000) (q : Fin 64) :
    broadcastTo S10000x64 b broadcasts_S1x64_S10000x64 (ix2 p q) = b (ix2 (0 : Fin 1) q) :=
  broadcastTo_apply b broadcasts_S1x64_S10000x64 (ix2 p q) (ix2 (0 : Fin 1) q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-- What the step stores, at entry (p, q) of its block. -/
theorem stored_apply (x : Vec Ideal S10000x64 .f32) (w : Vec Ideal S64x64 .f32) (b : Vec Ideal S1x64 .f32) (p : Fin 10000) (q : Fin 64) :
    k0_pay1 (F := Ideal) x w b (ix2 p q) = (∑ k : Fin 64, x (ix2 p k) * w (ix2 k q)) + b (ix2 (0 : Fin 1) q) := by
  unfold k0_pay1
  rw [shapeCast_self, shapeCast_self]
  refine (addf_apply _ _ _).trans ?_
  refine congrArg₂ (· + ·) ?_ (bias_apply b p q)
  exact product_apply _ _ p q

end Cert.AggLinear.Body

end
-- ==== Proof.Band.lean ====
/-
  One band of rows. Grid step t (ten steps) reads rows 10000·t … 10000·t + 9999 of its first window's array, the
  whole of its second window's array (the 64 × 64 weights) and the whole of its third's (the one bias row), and
  writes back the same band of rows of the result. Stated here for ANY three arrays `A`, `W`, `B` under the
  windows: what step t writes back is the band of `linear A W b`, where `b` is the one row of `B`, because a
  row's sum reads only its own row of `A`. The ten bands tile the 100000 rows: row r is in the band of step
  r / 10000.
-/
import proofs.«142591_j11141145166375_1_alg».proof.Proof.Gen.KernelIdeal.Points
import proofs.«142591_j11141145166375_1_alg».proof.Proof.Gen.KernelIdeal.Launch
import proofs.«142591_j11141145166375_1_alg».proof.Proof.Gen.KernelIdeal.Skeleton
import proofs.«142591_j11141145166375_1_alg».proof.Proof.Linear
import proofs.«142591_j11141145166375_1_alg».proof.Proof.BodyLinear
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.AggLinear.Kernel

open Cert.KernelIdeal Cert.KernelIdeal.Gen

/-! ## Where a step's blocks lie -/

/-- The printed index maps, decided over the ten steps: the first window and the output move down the rows with
    the step; the weight matrix and the bias row stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Each window's block read at an entry is the array under it at the entry's place in the array; the block the
    output window writes back is the whole block. -/
theorem read_rows (t : Fin cfg0.N) (A : S100000x64.Idx → EReal) (y : S10000x64.Idx) :
    ((cfg0.win 0).blk t).view.read (Elt Ideal) A y = A (((cfg0.win 0).blk t).view.emb y) := rfl
theorem read_weights (t : Fin cfg0.N) (W : S64x64.Idx → EReal) (y : S64x64.Idx) :
    ((cfg0.win 1).blk t).view.read (Elt Ideal) W y = W (((cfg0.win 1).blk t).view.emb y) := rfl
theorem read_bias (t : Fin cfg0.N) (B : S1x64.Idx → EReal) (y : S1x64.Idx) :
    ((cfg0.win 2).blk t).view.read (Elt Ideal) B y = B (((cfg0.win 2).blk t).view.emb y) := rfl
theorem read_result (t : Fin cfg0.N) (G : S100000x64.Idx → EReal) (y : S10000x64.Idx) :
    ((cfg0.win 3).blk t).view.read (Elt Ideal) G y = G (((cfg0.win 3).blk t).view.emb y) := rfl
theorem whole_block (t : Fin cfg0.N) (f : S10000x64.Idx → EReal) (y : S10000x64.Idx) :
    (cfg0.win 3).cut (grid0.coords t) f y = f y := rfl

/-! ## One step's band -/

/-- Row p of step t's band against column q, over the blocks `x`, `w`, `b` of any three arrays at step t:
    entry (10000·t + p, q) of `linear` of the arrays. -/
theorem band_entry (t : Fin cfg0.N) (A : S100000x64.Idx → EReal) (W : S64x64.Idx → EReal) (B : S1x64.Idx → EReal)
    (x : S10000x64.Idx → EReal) (w : S64x64.Idx → EReal) (b : S1x64.Idx → EReal)
    (hx : x = ((cfg0.win 0).blk t).view.read (Elt Ideal) A) (hw : w = ((cfg0.win 1).blk t).view.read (Elt Ideal) W)
    (hb : b = ((cfg0.win 2).blk t).view.read (Elt Ideal) B) (p : Fin 10000) (q : Fin 64) :
    (∑ k : Fin 64, x (ix2 p k) * w (ix2 k q)) + b (ix2 (0 : Fin 1) q)
      = linear A W (fun j => B (ix2 (0 : Fin 1) (j 0))) (((cfg0.win 3).blk t).view.emb (ix2 p q)) := by
  subst hx hw hb
  rw [linear_apply]
  obtain ⟨e00, e01, e10, e11, e20, e21, e30, e31⟩ := block_indices t
  refine congrArg₂ (· + ·) (Finset.sum_congr rfl fun k _ => congrArg₂ (· * ·) ?_ ?_) ?_
  · refine (read_rows t A (ix2 p k)).trans (congrArg A (funext fun a => Fin.ext ?_))
    match a with
    | ⟨0, _⟩ =>
      show win0_0.index t (0 : Fin 2) * 10000 + 1 * p.val = win0_3.index t (0 : Fin 2) * 10000 + 1 * p.val
      rw [e00, e30]
    | ⟨1, _⟩ =>
      show win0_0.index t (1 : Fin 2) * 64 + 1 * k.val = k.val
      rw [e01]; omega
  · refine (read_weights t W (ix2 k q)).trans (congrArg W (funext fun a => Fin.ext ?_))
    match a with
    | ⟨0, _⟩ =>
      show win0_1.index t (0 : Fin 2) * 64 + 1 * k.val = k.val
      rw [e10]; omega
    | ⟨1, _⟩ =>
      show win0_1.index t (1 : Fin 2) * 64 + 1 * q.val = win0_3.index t (1 : Fin 2) * 64 + 1 * q.val
      rw [e11, e31]
  · refine (read_bias t B (ix2 (0 : Fin 1) q)).trans (congrArg B (funext fun a => Fin.ext ?_))
    match a with
    | ⟨0, _⟩ =>
      show win0_2.index t (0 : Fin 2) * 1 + 1 * (0 : Nat) = 0
      rw [e20]
    | ⟨1, _⟩ =>
      show win0_2.index t (1 : Fin 2) * 64 + 1 * q.val = win0_3.index t (1 : Fin 2) * 64 + 1 * q.val
      rw [e21, e31]

/-- What step t writes back, over the blocks of any three arrays, is its band of `linear` of the arrays. -/
theorem band_written (t : Fin cfg0.N) (A : S100000x64.Idx → EReal) (W : S64x64.Idx → EReal) (B : S1x64.Idx → EReal) :
    (cfg0.win 3).cut (grid0.coords t) (k0_pay1 (F := Ideal) (((cfg0.win 0).blk t).view.read (Elt Ideal) A)
        (((cfg0.win 1).blk t).view.read (Elt Ideal) W) (((cfg0.win 2).blk t).view.read (Elt Ideal) B))
      = ((cfg0.win 3).blk t).view.read (Elt Ideal) (linear A W (fun j => B (ix2 (0 : Fin 1) (j 0)))) := by
  refine funext fun (y : S10000x64.Idx) => ?_
  obtain ⟨p, q, rfl⟩ : ∃ (p : Fin 10000) (q : Fin 64), y = ix2 p q := ⟨y 0, y 1, eq_ix2 y⟩
  refine (whole_block t _ (ix2 p q)).trans ?_
  refine (Body.stored_apply _ _ _ p q).trans ?_
  exact (band_entry t A W B _ _ _ rfl rfl rfl p q).trans (read_result t _ (ix2 p q)).symm

/-! ## The bands tile the rows -/

/-- An entry of the result array is in step t's band iff each coordinate is in the band's range on its axis. -/
theorem mem_band (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v11).slice (win0_3.rect t)).set ↔ _
  rw [View.set_slice_whole, Rect.mem_set_unit]
  exact Iff.rfl

/-- Row r is in the band of step r / 10000, which writes back. -/
theorem bands_cover (i : S100000x64.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by rw [hN]; omega⟩, rfl⟩
  obtain ⟨-, -, -, -, -, -, e30, e31⟩ := block_indices t
  refine ⟨t, flush0_3 t, ?_⟩
  rw [mem_band]
  intro a
  match a with
  | ⟨0, _⟩ =>
    show win0_3.index t (0 : Fin 2) * 10000 ≤ (i 0).val ∧ (i 0).val < win0_3.index t (0 : Fin 2) * 10000 + 10000
    rw [e30, ht]; omega
  | ⟨1, _⟩ =>
    show win0_3.index t (1 : Fin 2) * 64 ≤ (i 1).val ∧ (i 1).val < win0_3.index t (1 : Fin 2) * 64 + 64
    rw [e31]; omega

end Cert.AggLinear.Kernel

end
-- ==== Proof.Found.lean ====
/-
  The arrays the kernel's region finds. Three host results feed the region: the aggregated node features, the weight
  matrix and the bias row. The aggregated array is what the host operations in front of the region computed from
  the feature array and the two edge arrays (wrap a negative source index by 100000, gather the source rows, add
  each into the row its destination index names, from an array of zeros): one term of the arguments, named
  `aggregated` and never opened. The weight matrix is the argument itself. The bias row is the bias argument
  recast as one row of 64, whose entry in column q is the argument's entry q.
-/
import proofs.«142591_j11141145166375_1_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx Idealize.ShloMosaic.StableHlo

namespace Cert.AggLinear.Kernel

open Cert.KernelIdeal Cert.KernelIdeal.Gen

variable (m : (ℓ : Loc nD τ sig) → Buf (Elt Ideal) ℓ)

/-- The aggregated node features as the host operations in front of the region compute them from the feature
    array and the two edge arrays. -/
def aggregated (x0 : (⟨S100000x64, .f32⟩ : BufTy).Contents (Elt Ideal)) (x1 x2 : (⟨S1250000, .i32⟩ : BufTy).Contents (Elt Ideal)) :
    (⟨S100000x64, .f32⟩ : BufTy).Contents (Elt Ideal) :=
  Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 x2)
    (Host.gather gather_S100000x64_S1250000x1_S1250000x64_1_0_n_n_0_1_164 x0
      (broadcastInDim S1250000x1 ![0] bcast_S1250000_S1250000x1_0
        (select (cmpi .slt x1 (broadcastInDim S1250000 ![] bcast_S_S1250000 (constantI S_ 32 0#32)))
          (addi x1 (broadcastInDim S1250000 ![] bcast_S_S1250000 (constantI S_ 32 100000#32))) x1)))

/-- The region finds the aggregated array at the first window's buffer. -/
theorem found_aggregated (c : Dev nD) :
    (V m c main_v9 : S100000x64.Idx → EReal)
      = aggregated (m ((c : Thread nD τ).loc main_arg0)) (m ((c : Thread nD τ).loc main_arg1)) (m ((c : Thread nD τ).loc main_arg2)) := by
  dsimp only [Gen.V, Gen.hostOps0]
  after_results
  rfl

/-- The region finds the bias argument, recast as one row, at the third window's buffer. -/
theorem found_bias_row (c : Dev nD) :
    (V m c main_v10 : S1x64.Idx → EReal) = shapeCast S1x64 (m ((c : Thread nD τ).loc main_arg4)) shapeCasts_S64_S1x64 := by
  dsimp only [Gen.V, Gen.hostOps0]
  after_results
  rfl

/-- The one row's entry in column q is the bias argument's entry q. -/
theorem bias_row_apply (b : S64.Idx → EReal) (q : Fin 64) :
    shapeCast S1x64 b shapeCasts_S64_S1x64 (ix2 (0 : Fin 1) q) = b (ix1 q) :=
  shapeCast_apply b shapeCasts_S64_S1x64 (ix2 (0 : Fin 1) q) (ix1 q) (by
    rw [Shape.rowMajor_val_one, Shape.rowMajor_val_two]
    show q.val = (0 : Nat) * 64 + q.val
    omega)

end Cert.AggLinear.Kernel

end
-- ==== Proof.KernelLinear.lean ====
/-
  From the grid's bands to the whole result array. At every step the three input windows hold blocks of the arrays
  the region finds, so each step writes back its band of `linear` of those arrays (Proof/Band.lean, at those
  arrays); the ten bands tile the rows, so after the run the result array is `linear` of them; and the arrays the
  region finds are the aggregated array, the weight argument and the bias argument as one row (Proof/Found.lean).
-/
import proofs.«142591_j11141145166375_1_alg».proof.Proof.Gen.KernelIdeal.Value
import proofs.«142591_j11141145166375_1_alg».proof.Proof.Linear
import proofs.«142591_j11141145166375_1_alg».proof.Proof.Band
import proofs.«142591_j11141145166375_1_alg».proof.Proof.Found
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.AggLinear.Kernel

open Cert.KernelIdeal Cert.KernelIdeal.Gen Cert.KernelIdeal.Value

variable (m : (ℓ : Loc nD τ sig) → Buf (Elt Ideal) ℓ) (ρ : Dev nD → PrngReg)

theorem zeros : (![0, 0] : Fin 2 → Nat) = fun _ => 0 := funext fun a => by fin_cases a <;> rfl

/-- What step t writes back is its band of `linear` of the arrays the region finds under the three input windows. -/
theorem written_back (c : Dev nD) (t : Fin cfg0.N) :
    (dats m 0 c).flushed 3 t = ((cfg0.win 3).blk t).view.read (Elt Ideal)
      (linear (V m c (Pipeline.arrRef spec0 0)) (V m c (Pipeline.arrRef spec0 1))
        (fun j => V m c (Pipeline.arrRef spec0 2) (ix2 (0 : Fin 1) (j 0)))) := by
  rw [flushed3]
  unfold out0_3
  rw [View.canon_unit_zero zeros]
  simp only [View.ld_unit_zero (S := S10000x64) zeros, View.ld_unit_zero (S := S64x64) zeros, View.ld_unit_zero (S := S1x64) zeros]
  unfold iblk
  exact band_written t (V m c (Pipeline.arrRef spec0 0)) (V m c (Pipeline.arrRef spec0 1)) (V m c (Pipeline.arrRef spec0 2))

/-- The result array after the run, over the arrays the region finds. -/
theorem result_found (c : Dev nD) :
    (dats m 0 c).arrAt 3 cfg0.N = linear (V m c (Pipeline.arrRef spec0 0)) (V m c (Pipeline.arrRef spec0 1))
      (fun j => V m c (Pipeline.arrRef spec0 2) (ix2 (0 : Fin 1) (j 0))) :=
  (dats m 0 c).arrAt_eq_of_cover 3 _ (fun t _ => written_back m c t) bands_cover

/-- The three arrays under the input windows are the aggregated array, the weight argument and the bias row. -/
theorem found_rows (c : Dev nD) : (V m c (Pipeline.arrRef spec0 0) : S100000x64.Idx → EReal)
    = aggregated (m ((c : Thread nD τ).loc main_arg0)) (m ((c : Thread nD τ).loc main_arg1)) (m ((c : Thread nD τ).loc main_arg2)) :=
  found_aggregated m c
theorem found_weights (c : Dev nD) : (V m c (Pipeline.arrRef spec0 1) : S64x64.Idx → EReal) = m ((c : Thread nD τ).loc main_arg3) :=
  V_main_arg3 m c
theorem found_bias (c : Dev nD) : (V m c (Pipeline.arrRef spec0 2) : S1x64.Idx → EReal)
    = shapeCast S1x64 (m ((c : Thread nD τ).loc main_arg4)) shapeCasts_S64_S1x64 :=
  found_bias_row m c

/-- The result array after the run, over the arguments: `linear` of the aggregated array, the weights and the bias. -/
theorem result (c : Dev nD) :
    (dats m 0 c).arrAt 3 cfg0.N = linear
      (aggregated (m ((c : Thread nD τ).loc main_arg0)) (m ((c : Thread nD τ).loc main_arg1)) (m ((c : Thread nD τ).loc main_arg2)))
      (m ((c : Thread nD τ).loc main_arg3)) (m ((c : Thread nD τ).loc main_arg4)) := by
  refine (result_found m c).trans ?_
  rw [found_rows m c, found_weights m c, found_bias m c]
  refine congrArg (linear _ _) (funext fun j => ?_)
  refine (bias_row_apply _ (j 0)).trans ?_
  exact congrArg _ (eq_ix1 j).symm

/-- Every weakly fair execution of the kernel's program terminates with the result array at `linear` of the
    aggregated array, the weights and the bias, and the arguments unchanged. -/
theorem run : θ_run defs (onTc (τ := τ) (main (F := Ideal))) ⟨m, fun _ => 0, ρ⟩ fun r => ∀ c : Dev nD,
      r.2.mem ((c : Thread nD τ).loc main_v11) = linear
        (aggregated (m ((c : Thread nD τ).loc main_arg0)) (m ((c : Thread nD τ).loc main_arg1)) (m ((c : Thread nD τ).loc main_arg2)))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result m c), (h c).2⟩) (run_blocks m ρ)

end Cert.AggLinear.Kernel

end
-- ==== Proof.lean ====
/-
  A graph-convolution layer: node features are gathered along the edges' sources, added up at the edges'
  destinations, and the aggregated features go through a dense layer, `agg · W + b`.

  Both programs compute the aggregated array by the same host operations on the same arguments (wrap a negative
  source index, gather, scatter-add from zeros): one term, never opened here. They differ in the dense layer.
  The reference multiplies the whole 100000 × 64 array by the 64 × 64 weights and adds the bias broadcast over the
  rows. The kernel walks the rows in ten bands of 10000; at each band it narrows the band and the weights to a
  shorter float format, multiplies them into a zero accumulator and adds the bias row. On the extended reals the
  change of format is the identity, the zero accumulator adds nothing, and a band's rows only read their own rows
  of the aggregated array, so both results are, entry by entry,

      Σ_k agg[r, k] · W[k, j]  +  b[j]

  (`linear`, Proof/Linear.lean): the same sum of the same 64 products in both programs, so no law of the extended
  reals beyond `0 + s = s` is used, and the finiteness of the inputs is not needed.

  Proof/RefLinear.lean reads the reference's last three operations at an entry; Proof/BodyLinear.lean reads what
  one band's step stores at an entry; Proof/KernelLinear.lean puts the ten bands together into the result array
  and identifies the arrays the kernel's region finds with the arguments. The kernel's idealization rewrote no
  operation, so there is nothing to preserve; each program's termination and unchanged arguments come with its
  run.
-/
import proofs.«142591_j11141145166375_1_alg».proof.Defs
import proofs.«142591_j11141145166375_1_alg».proof.Proof.Gen.Kernel
import proofs.«142591_j11141145166375_1_alg».proof.Proof.Gen.Kernel.Skeleton
import proofs.«142591_j11141145166375_1_alg».proof.Proof.Gen.Kernel.Launch
import proofs.«142591_j11141145166375_1_alg».proof.Proof.Gen.Kernel.Points
import proofs.«142591_j11141145166375_1_alg».proof.Proof.Gen.Kernel.Frame
import proofs.«142591_j11141145166375_1_alg».proof.Proof.Gen.KernelIdeal
import proofs.«142591_j11141145166375_1_alg».proof.Proof.Gen.KernelIdeal.Skeleton
import proofs.«142591_j11141145166375_1_alg».proof.Proof.Gen.KernelIdeal.Launch
import proofs.«142591_j11141145166375_1_alg».proof.Proof.Gen.KernelIdeal.Points
import proofs.«142591_j11141145166375_1_alg».proof.Proof.Gen.KernelIdeal.Frame
import proofs.«142591_j11141145166375_1_alg».proof.Proof.Gen.ReferenceIdeal
import proofs.«142591_j11141145166375_1_alg».proof.Proof.Gen.Pre_finite_inputs
import proofs.«142591_j11141145166375_1_alg».proof.Proof.Gen.KernelIdeal.Value
import proofs.«142591_j11141145166375_1_alg».proof.Proof.Gen.ReferenceIdeal.Run
import proofs.«142591_j11141145166375_1_alg».proof.Proof.Gen.ReferenceIdeal.Read
import proofs.«142591_j11141145166375_1_alg».proof.Proof.Linear
import proofs.«142591_j11141145166375_1_alg».proof.Proof.RefLinear
import proofs.«142591_j11141145166375_1_alg».proof.Proof.KernelLinear
import Idealize.ShloMosaic.Adequacy
import Idealize.ShloMosaic.Init

noncomputable section

namespace Cert.Proof

open Idealize.ShloMosaic Idealize.ShloMosaic.TcCoe Idealize.SL.Sem

/-- The two programs aggregate by the same operations: the kernel's aggregated array and the reference's
    scatter-add stage are one term of the feature array and the two edge arrays. -/
theorem same_aggregate (x0 : (⟨Cert.KernelIdeal.S100000x64, .f32⟩ : BufTy).Contents (Elt Ideal))
    (x1 x2 : (⟨Cert.KernelIdeal.S1250000, .i32⟩ : BufTy).Contents (Elt Ideal)) :
    Cert.ReferenceIdeal.Read.val_main_v9 (F := Ideal) x0 x1 x2 = Cert.AggLinear.Kernel.aggregated x0 x1 x2 := rfl

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array ends at `linear` of its aggregated array, the weights and
    the bias, and the reference's at `linear` of its scatter-add stage, the weights and the bias: one function of
    the arguments. -/
theorem algebraic : Cert.algebraic_KernelIdeal_ReferenceIdeal := by
  intro m ρ m' ρ' _ hagree
  refine ⟨_, Cert.AggLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.AggLinear.Ref.result_eq,
    (hagree c).1, (hagree c).2.1, (hagree c).2.2.1, (hagree c).2.2.2.1, (hagree c).2.2.2.2, same_aggregate]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
